-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x41024 : Shape := ⟨2, ![4096, 41024]⟩
abbrev S4096x1 : Shape := ⟨2, ![4096, 1]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x41024 : S_.BroadcastsInDim S4096x41024 (![] : Fin 0 → Fin S4096x41024.rank)
  reducesTo_S4096x41024_S_d0_1 : S4096x41024.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S256x41024 : S_.BroadcastsInDim S256x41024 (![] : Fin 0 → Fin S256x41024.rank)
  reducesTo_S256x41024_S_d0_1 : S256x41024.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S32x32 .f32) (main_arg8 : FVec F S32 .f32) (main_arg9 : FVec F S1x32 .f32) (main_arg10 : FVec F S1 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S256 .f32) (main_arg5 : FVec F S32x512 .f32) (main_arg6 : FVec F S32 .f32) (main_arg7 : FVec F S32x32 .f32) (main_arg8 : FVec F S32 .f32) (main_arg9 : FVec F S1x32 .f32) (main_arg10 : FVec F S1 .f32) (main_v13 : IVec S_ 1) (main_v16 : IVec S256x41024 1) : IVec S_ 1 :=
  let main_c_5 : IVec S_ 1 := constantI S_ 1 1#1
  let main_v17 : IVec S_ 1 := (fun x v => Host.reduce IntOp.andi x v reducesTo_S256x41024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S32x512 .f32 := Host.absf main_arg5
  let main_cst_8 : FVec F S_ .f32 := constant S_ .f32 0x7F800000#32
  let main_v25 : FVec F S32x512 .f32 := broadcastInDim S32x512 ![] bcast_S_S32x512 main_cst_8
  let main_v26 : IVec S32x512 1 := cmpf .olt main_v24 main_v25
  let main_c_9 : IVec S_ 1 := constantI S_ 1 1#1
  let main_v27 : IVec S_ 1 := (fun x v => Host.reduce IntOp.andi x v reducesTo_S32x512_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x41024 .f32) (main_arg1 : FVec F S4096x41024 .f32) (main_arg2 : FVec F S4096x1 .f32) (main_arg3 : FVec F S256x41024 .f32) (main_arg4 : FVec F S256 .f32) (main_arg5 : FVec F S32x512 .f32) (main_arg6 : FVec F S32 .f32) (main_arg7 : FVec F S32x32 .f32) (main_arg8 : FVec F S32 .f32) (main_arg9 : FVec F S1x32 .f32) (main_arg10 : FVec F S1 .f32) : IVec S_ 1 :=
  let main_v0 : FVec F S4096x41024 .f32 := Host.absf main_arg0
  let main_cst : FVec F S_ .f32 := constant S_ .f32 0x7F800000#32
  let main_v1 : FVec F S4096x41024 .f32 := broadcastInDim S4096x41024 ![] bcast_S_S4096x41024 main_cst
  let main_v2 : IVec S4096x41024 1 := cmpf .olt main_v0 main_v1
  let main_c : IVec S_ 1 := constantI S_ 1 1#1
  let main_v3 : IVec S_ 1 := (fun x v => Host.reduce IntOp.andi x v reducesTo_S4096x41024_S_d0_1 h_S_) main_v2 main_c
  let main_v4 : FVec F S4096x41024 .f32 := Host.absf main_arg1
  let main_cst_0 : FVec F S_ .f32 := constant S_ .f32 0x7F800000#32
  let main_v5 : FVec F S4096x41024 .f32 := broadcastInDim S4096x41024 ![] bcast_S_S4096x41024 main_cst_0
  let main_v6 : IVec S4096x41024 1 := cmpf .olt main_v4 main_v5
  let main_c_1 : IVec S_ 1 := constantI S_ 1 1#1
  let main_v7 : IVec S_ 1 := (fun x v => Host.reduce IntOp.andi x v reducesTo_S4096x41024_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S256x41024 .f32 := Host.absf main_arg3
  let main_cst_4 : FVec F S_ .f32 := constant S_ .f32 0x7F800000#32
  let main_v15 : FVec F S256x41024 .f32 := broadcastInDim S256x41024 ![] bcast_S_S256x41024 main_cst_4
  let main_v16 : IVec S256x41024 1 := cmpf .olt main_v14 main_v15
  fn_part1 (F := F) main_arg4 main_arg5 main_arg6 main_arg7 main_arg8 main_arg9 main_arg10 main_v13 main_v16
-- ==== Kernel.lean ====
abbrev S4096x41024 : Shape := ⟨2, ![4096, 41024]⟩
abbrev S4096x1 : Shape := ⟨2, ![4096, 1]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41024x256 : Shape := ⟨2, ![41024, 256]⟩
abbrev S512x32 : Shape := ⟨2, ![512, 32]⟩
abbrev S32x1 : Shape := ⟨2, ![32, 1]⟩
abbrev S1x256 : Shape := ⟨2, ![1, 256]⟩
abbrev S1x1 : Shape := ⟨2, ![1, 1]⟩
abbrev S32x41024 : Shape := ⟨2, ![32, 41024]⟩
abbrev S32x256 : Shape := ⟨2, ![32, 256]⟩

abbrev nBuf : Space → Nat
  | .hbm => 24
  | .vmem => 16
  | .smem => 0
  | _ => 0

abbrev bufTy : (tb : Table) → Fin (tcTables nBuf tb) → BufTy
  | .hbm, ⟨0, _⟩ => ⟨S4096x41024, .f32⟩
  | .hbm, ⟨1, _⟩ => ⟨S4096x41024, .f32⟩
  | .hbm, ⟨2, _⟩ => ⟨S4096x1, .f32⟩
  | .hbm, ⟨3, _⟩ => ⟨S256x41024, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S41024x256, .f32⟩
  | .hbm, ⟨12, _⟩ => ⟨S41024x256, .bf16⟩
  | .hbm, ⟨13, _⟩ => ⟨S512x32, .f32⟩
  | .hbm, ⟨14, _⟩ => ⟨S512x32, .bf16⟩
  | .hbm, ⟨15, _⟩ => ⟨S32x32, .f32⟩
  | .hbm, ⟨16, _⟩ => ⟨S32x32, .bf16⟩
  | .hbm, ⟨17, _⟩ => ⟨S32x1, .f32⟩
  | .hbm, ⟨18, _⟩ => ⟨S32x1, .bf16⟩
  | .hbm, ⟨19, _⟩ => ⟨S1x256, .f32⟩
  | .hbm, ⟨20, _⟩ => ⟨S1x32, .f32⟩
  | .hbm, ⟨21, _⟩ => ⟨S1x32, .f32⟩
  | .hbm, ⟨22, _⟩ => ⟨S1x1, .f32⟩
  | .hbm, ⟨23, _⟩ => ⟨S4096x1, .f32⟩
  | .local _ .vmem, ⟨0, _⟩ => ⟨S32x41024, .f32⟩
  | .local _ .vmem, ⟨1, _⟩ => ⟨S32x41024, .f32⟩
  | .local _ .vmem, ⟨2, _⟩ => ⟨S32x41024, .f32⟩
  | .local _ .vmem, ⟨3, _⟩ => ⟨S32x41024, .f32⟩
  | .local _ .vmem, ⟨4, _⟩ => ⟨S32x1, .f32⟩
  | .local _ .vmem, ⟨5, _⟩ => ⟨S32x1, .f32⟩
  | .local _ .vmem, ⟨6, _⟩ => ⟨S41024x256, .bf16⟩
  | .local _ .vmem, ⟨7, _⟩ => ⟨S1x256, .f32⟩
  | .local _ .vmem, ⟨8, _⟩ => ⟨S512x32, .bf16⟩
  | .local _ .vmem, ⟨9, _⟩ => ⟨S1x32, .f32⟩
  | .local _ .vmem, ⟨10, _⟩ => ⟨S32x32, .bf16⟩
  | .local _ .vmem, ⟨11, _⟩ => ⟨S1x32, .f32⟩
  | .local _ .vmem, ⟨12, _⟩ => ⟨S32x1, .bf16⟩
  | .local _ .vmem, ⟨13, _⟩ => ⟨S1x1, .f32⟩
  | .local _ .vmem, ⟨14, _⟩ => ⟨S32x1, .f32⟩
  | .local _ .vmem, ⟨15, _⟩ => ⟨S32x1, .f32⟩
  | _, _ => ⟨S4096x41024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x41024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x41024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S41024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S256x41024_S41024x256_1_0 : S256x41024.Transposes [1, 0] S41024x256
  bitsLt_bf16_f32 : FTy.bits .bf16 < FTy.bits .f32
  transposes_S32x512_S512x32_1_0 : S32x512.Transposes [1, 0] S512x32
  transposes_S32x32_S32x32_1_0 : S32x32.Transposes [1, 0] S32x32
  transposes_S1x32_S32x1_1_0 : S1x32.Transposes [1, 0] S32x1
  shapeCasts_S256_S1x256 : S256.ShapeCasts S1x256
  shapeCasts_S32_S1x32 : S32.ShapeCasts S1x32
  shapeCasts_S1_S1x1 : S1.ShapeCasts S1x1
  inb_S32x41024_S32x41024_0_0 : ∀ a, (![0, 0] : Fin 2 → Nat) a + S32x41024.size a ≤ S32x41024.size a
  h_S32x41024 : 0 < S32x41024.numel
  inb_S41024x256_S41024x256_0_0 : ∀ a, (![0, 0] : Fin 2 → Nat) a + S41024x256.size a ≤ S41024x256.size a
  h_S41024x256 : 0 < S41024x256.numel
  shapeCasts_S41024x256_S41024x256 : S41024x256.ShapeCasts S41024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x1_S32x1_0_0 : ∀ a, (![0, 0] : Fin 2 → Nat) a + S32x1.size a ≤ S32x1.size a
  h_S32x1 : 0 < S32x1.numel
  concatenates_S32x256_S32x256_S32x512_d1 : Shape.Concatenates [S32x256, S32x256] S32x512 1
  broadcasts_S32x1_S32x512 : S32x1.Broadcasts S32x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32x32 : S1x32.Broadcasts S32x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x1 : S1x1.Broadcasts S32x1
  dot_S32x41024_S41024x256_S32x256_1_0_0_1_n_n_wf : DotDims.WF S32x41024 S41024x256 S32x256 [1] [0] [0] [1] [] []
  dot_S32x512_S512x32_S32x32_1_0_0_1_n_n_wf : DotDims.WF S32x512 S512x32 S32x32 [1] [0] [0] [1] [] []
  dot_S32x32_S32x32_S32x32_1_0_0_1_n_n_wf : DotDims.WF S32x32 S32x32 S32x32 [1] [0] [0] [1] [] []
  dot_S32x32_S32x1_S32x1_1_0_0_1_n_n_wf : DotDims.WF S32x32 S32x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x41024.size a ≤ S4096x41024.size a
  hwx0_0 : ∀ i : grid0.Coords, EltTy.bits .f32 = 32 ∨ (Rect.block (s := S4096x41024) S32x41024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x41024.size a ≤ S4096x41024.size a
  hwx0_1 : ∀ i : grid0.Coords, EltTy.bits .f32 = 32 ∨ (Rect.block (s := S4096x41024) S32x41024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .f32 = 32 ∨ (Rect.block (s := S4096x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S41024x256.size a ≤ S41024x256.size a
  hwx0_3 : ∀ i : grid0.Coords, EltTy.bits .bf16 = 32 ∨ (Rect.block (s := S41024x256) S41024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x32.size a ≤ S512x32.size a
  hwx0_5 : ∀ i : grid0.Coords, EltTy.bits .bf16 = 32 ∨ (Rect.block (s := S512x32) S512x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .bf16 = 32 ∨ (Rect.block (s := S32x1) S32x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x1.size a ≤ S4096x1.size a
  hwx0_11 : ∀ i : grid0.Coords, EltTy.bits .f32 = 32 ∨ (Rect.block (s := S4096x1) S32x1.size (cc0_transform_11 i) (hinb0_11 i)).WholeWords (EltTy.packing .f32)

variable [Facts₀]

def dot_S32x41024_S41024x256_S32x256_1_0_0_1_n_n : DotDims S32x41024 S41024x256 S32x256 where
  lhsContracting := [1]
  rhsContracting := [0]
  lhsNonContracting := [0]
  rhsNonContracting := [1]
  lhsBatch := []
  rhsBatch := []
  wf := dot_S32x41024_S41024x256_S32x256_1_0_0_1_n_n_wf
def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x1_S32x1_1_0_0_1_n_n : DotDims S32x32 S32x1 S32x1 where
  lhsContracting := [1]
  rhsContracting := [0]
  lhsNonContracting := [0]
  rhsNonContracting := [1]
  lhsBatch := []
  rhsBatch := []
  wf := dot_S32x32_S32x1_S32x1_1_0_0_1_n_n_wf

abbrev win0_0 : Pipeline.Window sig grid0 :=
  Pipeline.Window.ofSpec (Memref.whole main_arg0) S32x41024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x41024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S41024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S32x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x41024 : Shape := ⟨2, ![4096, 41024]⟩
abbrev S4096x1 : Shape := ⟨2, ![4096, 1]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41024x256 : Shape := ⟨2, ![41024, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x41024, .f32⟩
  | .hbm, ⟨1, _⟩ => ⟨S4096x41024, .f32⟩
  | .hbm, ⟨2, _⟩ => ⟨S4096x1, .f32⟩
  | .hbm, ⟨3, _⟩ => ⟨S256x41024, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S41024x256, .f32⟩
  | .hbm, ⟨12, _⟩ => ⟨S4096x256, .f32⟩
  | .hbm, ⟨13, _⟩ => ⟨S1x256, .f32⟩
  | .hbm, ⟨14, _⟩ => ⟨S4096x256, .f32⟩
  | .hbm, ⟨15, _⟩ => ⟨S4096x256, .f32⟩
  | .hbm, ⟨16, _⟩ => ⟨S41024x256, .f32⟩
  | .hbm, ⟨17, _⟩ => ⟨S4096x256, .f32⟩
  | .hbm, ⟨18, _⟩ => ⟨S1x256, .f32⟩
  | .hbm, ⟨19, _⟩ => ⟨S4096x256, .f32⟩
  | .hbm, ⟨20, _⟩ => ⟨S4096x256, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S512x32, .f32⟩
  | .hbm, ⟨40, _⟩ => ⟨S4096x32, .f32⟩
  | .hbm, ⟨41, _⟩ => ⟨S1x32, .f32⟩
  | .hbm, ⟨42, _⟩ => ⟨S4096x32, .f32⟩
  | .hbm, ⟨43, _⟩ => ⟨S4096x32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x32, .f32⟩
  | .hbm, ⟨48, _⟩ => ⟨S4096x32, .f32⟩
  | .hbm, ⟨49, _⟩ => ⟨S_, .f32⟩
  | .hbm, ⟨50, _⟩ => ⟨S4096x32, .f32⟩
  | .hbm, ⟨51, _⟩ => ⟨S4096x32, .f32⟩
  | .hbm, ⟨52, _⟩ => ⟨S32x32, .f32⟩
  | .hbm, ⟨53, _⟩ => ⟨S4096x32, .f32⟩
  | .hbm, ⟨54, _⟩ => ⟨S1x32, .f32⟩
  | .hbm, ⟨55, _⟩ => ⟨S4096x32, .f32⟩
  | .hbm, ⟨56, _⟩ => ⟨S4096x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x32, .f32⟩
  | .hbm, ⟨61, _⟩ => ⟨S4096x32, .f32⟩
  | .hbm, ⟨62, _⟩ => ⟨S_, .f32⟩
  | .hbm, ⟨63, _⟩ => ⟨S4096x32, .f32⟩
  | .hbm, ⟨64, _⟩ => ⟨S4096x32, .f32⟩
  | .hbm, ⟨65, _⟩ => ⟨S32x1, .f32⟩
  | .hbm, ⟨66, _⟩ => ⟨S4096x1, .f32⟩
  | .hbm, ⟨67, _⟩ => ⟨S1x1, .f32⟩
  | .hbm, ⟨68, _⟩ => ⟨S4096x1, .f32⟩
  | .hbm, ⟨69, _⟩ => ⟨S4096x1, .f32⟩
  | _, _ => ⟨S4096x41024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]

class Facts₀ : Prop where
  transposes_S256x41024_S41024x256_1_0 : S256x41024.Transposes [1, 0] S41024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x1 : S_.BroadcastsInDim S4096x1 (![] : Fin 0 → Fin S4096x1.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41024_S41024x256_S4096x256_1_0_0_1_n_n_wf : DotDims.WF S4096x41024 S41024x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41024_S41024x256_S4096x256_1_0_0_1_n_n : DotDims S4096x41024 S41024x256 S4096x256 where
  lhsContracting := [1]
  rhsContracting := [0]
  lhsNonContracting := [0]
  rhsNonContracting := [1]
  lhsBatch := []
  rhsBatch := []
  wf := dot_S4096x41024_S41024x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Spec.lean ====
/-
  One row of a two-perspective feature network with clamped hidden layers, as a function on the extended reals.

  A row has two feature vectors `xw`, `xb` of length 41024 and a side-to-move weight `s`. Both feature vectors go
  through ONE affine map (`W0`, `b0`, 256 outputs); the two images are laid side by side in both orders and the
  two layouts mixed with weights `s` and `1 - s`; the mixture is clamped to [0, 1]; three more affine layers
  (512 → 32, 32 → 32, 32 → 1) follow, the first two of them clamped. Every weight matrix is indexed
  (output unit, input unit), as the network's parameters are stored.

  Nothing here depends on a program: both programs are later shown to compute `rowOut` of the row's data.
-/
import Idealize.ShloMosaic.PureOps.Ideal
import Idealize.ShloMosaic.Lib.ValueIdx

noncomputable section

open scoped BigOperators

namespace Cert.Nnue

open Idealize.ShloMosaic

/-- An affine layer: output unit `n` is the inner product of the input with row `n` of the weights, plus bias `n`. -/
def lin {K N : Nat} (x : Fin K → EReal) (W : Fin N → Fin K → EReal) (b : Fin N → EReal) (n : Fin N) : EReal :=
  (∑ k : Fin K, x k * W n k) + b n

/-- The clamp to [0, 1], in the order both programs take it: the larger of 0 and `x` first, then the smaller
    of 1 and that. -/
def clip (x : EReal) : EReal :=
  min (Ideal.ofBits .f32 0x3F800000#32) (max (Ideal.ofBits .f32 0x00000000#32) x)

/-- Two vectors of length 256 side by side: positions below 256 read the first, the others the second. -/
def cat (u v : Fin 256 → EReal) (j : Fin 512) : EReal :=
  if h : j.val < 256 then u ⟨j.val, h⟩ else v ⟨j.val - 256, by have := j.isLt; omega⟩

/-- The side-to-move mixture of the two layouts: `s · [w, b] + (1 - s) · [b, w]`. -/
def blend (s : EReal) (w b : Fin 256 → EReal) (j : Fin 512) : EReal :=
  s * cat w b j + (Ideal.ofBits .f32 0x3F800000#32 - s) * cat b w j

/-- The first hidden layer of a row: the clamped mixture of the two projected feature vectors. -/
def hidden1 (xw xb : Fin 41024 → EReal) (s : EReal) (W0 : Fin 256 → Fin 41024 → EReal) (b0 : Fin 256 → EReal)
    (j : Fin 512) : EReal :=
  clip (blend s (lin xw W0 b0) (lin xb W0 b0) j)

/-- The network's output for one row. -/
def rowOut (xw xb : Fin 41024 → EReal) (s : EReal) (W0 : Fin 256 → Fin 41024 → EReal) (b0 : Fin 256 → EReal)
    (W1 : Fin 32 → Fin 512 → EReal) (b1 : Fin 32 → EReal) (W2 : Fin 32 → Fin 32 → EReal) (b2 : Fin 32 → EReal)
    (W3 : Fin 1 → Fin 32 → EReal) (b3 : Fin 1 → EReal) (u : Fin 1) : EReal :=
  lin (fun j => clip (lin (fun j => clip (lin (hidden1 xw xb s W0 b0) W1 b1 j)) W2 b2 j)) W3 b3 u

/-- The whole output array `[4096, 1]` as one function of the eleven argument arrays: entry `(r, u)` is the network's
    output for row `r` of the two feature arrays and of the side-to-move column, the weights and biases read as the
    arguments store them. -/
def netOut (a0 a1 : (⟨2, ![4096, 41024]⟩ : Shape).Idx → EReal) (a2 : (⟨2, ![4096, 1]⟩ : Shape).Idx → EReal)
    (a3 : (⟨2, ![256, 41024]⟩ : Shape).Idx → EReal) (a4 : (⟨1, ![256]⟩ : Shape).Idx → EReal)
    (a5 : (⟨2, ![32, 512]⟩ : Shape).Idx → EReal) (a6 : (⟨1, ![32]⟩ : Shape).Idx → EReal)
    (a7 : (⟨2, ![32, 32]⟩ : Shape).Idx → EReal) (a8 : (⟨1, ![32]⟩ : Shape).Idx → EReal)
    (a9 : (⟨2, ![1, 32]⟩ : Shape).Idx → EReal) (a10 : (⟨1, ![1]⟩ : Shape).Idx → EReal) :
    (⟨2, ![4096, 1]⟩ : Shape).Idx → EReal := fun i =>
  rowOut (fun k => a0 (ValueIdx.ix2 (⟨(i 0).val, (i 0).isLt⟩ : Fin 4096) k))
    (fun k => a1 (ValueIdx.ix2 (⟨(i 0).val, (i 0).isLt⟩ : Fin 4096) k))
    (a2 (ValueIdx.ix2 (⟨(i 0).val, (i 0).isLt⟩ : Fin 4096) (0 : Fin 1)))
    (fun q k => a3 (ValueIdx.ix2 q k)) (fun q => a4 (ValueIdx.ix1 q))
    (fun n j => a5 (ValueIdx.ix2 n j)) (fun n => a6 (ValueIdx.ix1 n))
    (fun n j => a7 (ValueIdx.ix2 n j)) (fun n => a8 (ValueIdx.ix1 n))
    (fun n j => a9 (ValueIdx.ix2 n j)) (fun n => a10 (ValueIdx.ix1 n))
    (⟨(i 1).val, (i 1).isLt⟩ : Fin 1)

/-- `netOut` at an index given by its two coordinates. -/
theorem netOut_ix2 (a0 a1 : (⟨2, ![4096, 41024]⟩ : Shape).Idx → EReal) (a2 : (⟨2, ![4096, 1]⟩ : Shape).Idx → EReal)
    (a3 : (⟨2, ![256, 41024]⟩ : Shape).Idx → EReal) (a4 : (⟨1, ![256]⟩ : Shape).Idx → EReal)
    (a5 : (⟨2, ![32, 512]⟩ : Shape).Idx → EReal) (a6 : (⟨1, ![32]⟩ : Shape).Idx → EReal)
    (a7 : (⟨2, ![32, 32]⟩ : Shape).Idx → EReal) (a8 : (⟨1, ![32]⟩ : Shape).Idx → EReal)
    (a9 : (⟨2, ![1, 32]⟩ : Shape).Idx → EReal) (a10 : (⟨1, ![1]⟩ : Shape).Idx → EReal) (r : Fin 4096) (u : Fin 1) :
    netOut a0 a1 a2 a3 a4 a5 a6 a7 a8 a9 a10 (ValueIdx.ix2 r u)
      = rowOut (fun k => a0 (ValueIdx.ix2 r k)) (fun k => a1 (ValueIdx.ix2 r k)) (a2 (ValueIdx.ix2 r (0 : Fin 1)))
          (fun q k => a3 (ValueIdx.ix2 q k)) (fun q => a4 (ValueIdx.ix1 q))
          (fun n j => a5 (ValueIdx.ix2 n j)) (fun n => a6 (ValueIdx.ix1 n))
          (fun n j => a7 (ValueIdx.ix2 n j)) (fun n => a8 (ValueIdx.ix1 n))
          (fun n j => a9 (ValueIdx.ix2 n j)) (fun n => a10 (ValueIdx.ix1 n)) u := rfl

end Cert.Nnue

end
-- ==== Proof.Concat.lean ====
/-
  Two row blocks of width 256 joined along the column axis, read at an entry.

  Entry `(p, j)` of the joined array `[R, 512]` is entry `(p, j)` of the first piece when `j < 256` and entry
  `(p, j - 256)` of the second piece otherwise: the row coordinate is kept, the column coordinate is located
  among the two pieces' extents. This is the side-by-side layout `cat` of the row specification, row by row.
-/
import proofs.«151356_j64518998721049_1_alg».proof.Proof.Spec
import Idealize.ShloMosaic.Lib.Pipeline.Value
import Idealize.ShloMosaic.Lib.ValueIdx

noncomputable section

namespace Cert.Nnue

open Idealize.ShloMosaic Idealize.ShloMosaic.ValueIdx

/-- A two-piece concatenation `[R, 256] ++ [R, 256] → [R, 512]` along axis 1, at `(p, j)`, is `cat` of the two
    pieces' rows `p` at `j`. -/
theorem concat_rows {R : Nat} (a b : (⟨2, ![R, 256]⟩ : Shape).Idx → EReal)
    (h : Shape.Concatenates [(⟨2, ![R, 256]⟩ : Shape), (⟨2, ![R, 256]⟩ : Shape)] (⟨2, ![R, 512]⟩ : Shape) 1)
    (p : Fin R) (j : Fin 512) :
    concatenate (⟨2, ![R, 512]⟩ : Shape) 1 [⟨(⟨2, ![R, 256]⟩ : Shape), a⟩, ⟨(⟨2, ![R, 256]⟩ : Shape), b⟩] h (ix2 p j)
      = cat (fun q => a (ix2 p q)) (fun q => b (ix2 p q)) j := by
  unfold cat
  split
  · next hlt =>
    exact concatenate_pair_apply_left 1 a b h (ix2 p j) rfl (ix2 p ⟨j.val, hlt⟩)
      (fun c => match c with | ⟨0, _⟩ => rfl | ⟨1, _⟩ => rfl)
  · next hge =>
    have hj := j.isLt
    refine concatenate_pair_apply_right 1 a b h (ix2 p j) rfl rfl (ix2 p ⟨j.val - 256, by omega⟩) ?_ ?_
    · intro c hc
      match c with
      | ⟨0, _⟩ => rfl
      | ⟨1, _⟩ => exact absurd rfl hc
    · show j.val - 256 + 256 = j.val
      omega

end Cert.Nnue

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KernelRow.lean ====
/-
  What the kernel's body stores for one row of its block, at the extended reals.

  The body loads a block of 32 rows of the white and black features and of the side-to-move column, and the whole
  of each weight array as the host stored it: transposed, so that the stored matrix is indexed (input unit,
  output unit), and each bias as a single row. Every product is a plain matrix product into the zero matrix, so its
  entry `(p, q)` is the sum over `k` of `lhs (p, k) * rhs (k, q)`; a bias row is repeated over the 32 rows; the
  side-to-move column is repeated over the 512 columns; the two joined layouts are read column by column; the
  roundings to the narrower float format are the identity on extended reals. Pushing an entry `(p, u)` of the stored
  value through these operations leaves exactly the row specification `rowOut` of row `p` of the loaded blocks.
-/
import proofs.«151356_j64518998721049_1_alg».proof.Proof.Gen.KernelIdeal.Skeleton
import proofs.«151356_j64518998721049_1_alg».proof.Proof.Spec
import proofs.«151356_j64518998721049_1_alg».proof.Proof.Concat
import proofs.«151356_j64518998721049_1_alg».proof.Proof.LibPlainMatmul
import proofs.«151356_j64518998721049_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Nnue.KernelRow

open Cert.KernelIdeal Cert.KernelIdeal.Gen Idealize.ShloMosaic Idealize.ShloMosaic.ValueIdx Cert.Nnue

/-- The two projections joined along the columns, at `(p, j)`. -/
theorem concat_apply (a b : FVec Ideal S32x256 .f32) (p : Fin 32) (j : Fin 512) :
    concatenate S32x512 1 [⟨S32x256, a⟩, ⟨S32x256, b⟩] Facts₀.concatenates_S32x256_S32x256_S32x512_d1 (ix2 p j)
      = cat (fun q => a (ix2 p q)) (fun q => b (ix2 p q)) j :=
  concat_rows a b _ p j

/-- The feature projection at an entry: row \`p\` of the features against column \`q\` of the stored weights. -/
theorem mm1 {φ₁ φ₂ : FTy} (lhs : FVec Ideal S32x41024 φ₁) (rhs : FVec Ideal S41024x256 φ₂) (p : Fin 32) (q : Fin 256) :
    matmul dot_S32x41024_S41024x256_S32x256_1_0_0_1_n_n none lhs rhs (constant S32x256 .f32 0x00000000#32) (ix2 p q)
      = ∑ k : Fin 41024, lhs (ix2 p k) * rhs (ix2 k q) :=
  PlainMatmul.matmul_zero_apply _ rfl rfl rfl rfl rfl rfl none lhs rhs p q

/-- The second layer's product at an entry. -/
theorem mm2 {φ₁ φ₂ : FTy} (lhs : FVec Ideal S32x512 φ₁) (rhs : FVec Ideal S512x32 φ₂) (p : Fin 32) (q : Fin 32) :
    matmul dot_S32x512_S512x32_S32x32_1_0_0_1_n_n none lhs rhs (constant S32x32 .f32 0x00000000#32) (ix2 p q)
      = ∑ k : Fin 512, lhs (ix2 p k) * rhs (ix2 k q) :=
  PlainMatmul.matmul_zero_apply _ rfl rfl rfl rfl rfl rfl none lhs rhs p q

/-- The third layer's product at an entry. -/
theorem mm3 {φ₁ φ₂ : FTy} (lhs : FVec Ideal S32x32 φ₁) (rhs : FVec Ideal S32x32 φ₂) (p : Fin 32) (q : Fin 32) :
    matmul dot_S32x32_S32x32_S32x32_1_0_0_1_n_n none lhs rhs (constant S32x32 .f32 0x00000000#32) (ix2 p q)
      = ∑ k : Fin 32, lhs (ix2 p k) * rhs (ix2 k q) :=
  PlainMatmul.matmul_zero_apply _ rfl rfl rfl rfl rfl rfl none lhs rhs p q

/-- The output layer's product at an entry. -/
theorem mm4 {φ₁ φ₂ : FTy} (lhs : FVec Ideal S32x32 φ₁) (rhs : FVec Ideal S32x1 φ₂) (p : Fin 32) (q : Fin 1) :
    matmul dot_S32x32_S32x1_S32x1_1_0_0_1_n_n none lhs rhs (constant S32x1 .f32 0x00000000#32) (ix2 p q)
      = ∑ k : Fin 32, lhs (ix2 p k) * rhs (ix2 k q) :=
  PlainMatmul.matmul_zero_apply _ rfl rfl rfl rfl rfl rfl none lhs rhs p q

/-- ENTRY `(p, u)` OF THE STORED VALUE is the network's output for row `p` of the loaded blocks, the stored
    (transposed) weights read back as (output unit, input unit). -/
theorem pay_row (x0 x1 : Vec Ideal S32x41024 .f32) (x2 : Vec Ideal S32x1 .f32) (x3 : Vec Ideal S41024x256 .bf16)
    (x4 : Vec Ideal S1x256 .f32) (x5 : Vec Ideal S512x32 .bf16) (x6 : Vec Ideal S1x32 .f32) (x7 : Vec Ideal S32x32 .bf16)
    (x8 : Vec Ideal S1x32 .f32) (x9 : Vec Ideal S32x1 .bf16) (x10 : Vec Ideal S1x1 .f32) (p : Fin 32) (u : Fin 1) :
    k0_pay1 (F := Ideal) (k0_pay2 x0 x1 x3 x4 x2 x5 x6) (Scalar.ofBits .f32 0x3F800000#32) (k0_pay3 (F := Ideal)) x7 x8 x9 x10 (ix2 p u)
      = rowOut (fun k => x0 (ix2 p k)) (fun k => x1 (ix2 p k)) (x2 (ix2 p (0 : Fin 1)))
          (fun q k => x3 (ix2 k q)) (fun q => x4 (ix2 (0 : Fin 1) q))
          (fun n j => x5 (ix2 j n)) (fun n => x6 (ix2 (0 : Fin 1) n))
          (fun n j => x7 (ix2 j n)) (fun n => x8 (ix2 (0 : Fin 1) n))
          (fun n j => x9 (ix2 j n)) (fun n => x10 (ix2 (0 : Fin 1) n)) u := by
  unfold k0_pay1 k0_pay2 k0_pay3
  simp only [addf_apply, mulf_apply, subf_apply, maximumf_apply, minimumf_apply, truncf_apply, broadcast_apply,
    mm1, mm2, mm3, mm4, shapeCast_self, broadcastTo_1b_ab_apply, Cert.Lib.Keepdims.broadcastTo_a1_ab_apply, concat_apply]
  rfl

end Cert.Nnue.KernelRow

end
-- ==== Proof.Blocks.lean ====
/-
  From the kernel's blocks to its whole result array.

  The grid has 128 points; at point `t` the three row-blocked inputs (white features, black features, side to move)
  and the output sit at rows `32 t … 32 t + 31` of their arrays, while every weight and bias window is the whole of
  an array the host wrote before the region: a weight matrix transposed, a bias as one row (the roundings of the
  stored weights are the identity on extended reals). So row `p` of what point `t` stores is the network's output for
  row `32 t + p` of the arguments, that is block `t` of the one whole-array function `netOut`; the 128 blocks cover
  the 4096 rows (row `r` lies in block `r / 32`), hence the result array after the run is `netOut` of the arguments.
-/
import proofs.«151356_j64518998721049_1_alg».proof.Proof.Gen.KernelIdeal.Value
import proofs.«151356_j64518998721049_1_alg».proof.Proof.Spec
import proofs.«151356_j64518998721049_1_alg».proof.Proof.KernelRow
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.Nnue.Blocks

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Nnue
open Idealize.ShloMosaic.Pipeline (Dat)

variable (m : (ℓ : Loc nD τ sig) → Buf (Elt Ideal) ℓ) (ρ : Dev nD → PrngReg)
theorem hz : (![0, 0] : Fin 2 → Nat) = fun _ => 0 := funext fun a => by fin_cases a <;> rfl

/-- Two indices of a two-axis shape with equal coordinates are equal. -/
theorem idx2_ext {n0 n1 : Nat} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)

/-! ## One block's stored value from rows of the arguments -/

/-- If row `p` of the loaded feature blocks and side-to-move block is row `r` of the argument arrays, and the loaded
    weight arrays are the arguments' transposed (the biases the arguments' as one row), then entry `(p, u)` of the
    stored value is entry `(r, u)` of `netOut` of the arguments. -/
theorem block_row (x0 x1 : Vec Ideal S32x41024 .f32) (x2 : Vec Ideal S32x1 .f32) (x3 : Vec Ideal S41024x256 .bf16)
    (x4 : Vec Ideal S1x256 .f32) (x5 : Vec Ideal S512x32 .bf16) (x6 : Vec Ideal S1x32 .f32) (x7 : Vec Ideal S32x32 .bf16)
    (x8 : Vec Ideal S1x32 .f32) (x9 : Vec Ideal S32x1 .bf16) (x10 : Vec Ideal S1x1 .f32)
    (a0 a1 : S4096x41024.Idx → EReal) (a2 : S4096x1.Idx → EReal) (a3 : S256x41024.Idx → EReal) (a4 : S256.Idx → EReal)
    (a5 : S32x512.Idx → EReal) (a6 : S32.Idx → EReal) (a7 : S32x32.Idx → EReal) (a8 : S32.Idx → EReal)
    (a9 : S1x32.Idx → EReal) (a10 : S1.Idx → EReal) (p : Fin 32) (u : Fin 1) (r : Fin 4096)
    (h0 : ∀ k, x0 (ix2 p k) = a0 (ix2 r k)) (h1 : ∀ k, x1 (ix2 p k) = a1 (ix2 r k))
    (h2 : x2 (ix2 p (0 : Fin 1)) = a2 (ix2 r (0 : Fin 1)))
    (h3 : ∀ q k, x3 (ix2 k q) = a3 (ix2 q k)) (h4 : ∀ q, x4 (ix2 (0 : Fin 1) q) = a4 (ix1 q))
    (h5 : ∀ n j, x5 (ix2 j n) = a5 (ix2 n j)) (h6 : ∀ n, x6 (ix2 (0 : Fin 1) n) = a6 (ix1 n))
    (h7 : ∀ n j, x7 (ix2 j n) = a7 (ix2 n j)) (h8 : ∀ n, x8 (ix2 (0 : Fin 1) n) = a8 (ix1 n))
    (h9 : ∀ n j, x9 (ix2 j n) = a9 (ix2 n j)) (h10 : ∀ n, x10 (ix2 (0 : Fin 1) n) = a10 (ix1 n)) :
    k0_pay1 (F := Ideal) (k0_pay2 x0 x1 x3 x4 x2 x5 x6) (Scalar.ofBits .f32 0x3F800000#32) (k0_pay3 (F := Ideal)) x7 x8 x9 x10 (ix2 p u)
      = netOut a0 a1 a2 a3 a4 a5 a6 a7 a8 a9 a10 (ix2 r u) := by
  rw [KernelRow.pay_row, netOut_ix2]
  simp only [h0, h1, h2, h3, h4, h5, h6, h7, h8, h9, h10]

/-! ## The printed index maps over the grid -/

/-- Decided over the 128 grid points: the three row-blocked inputs and the output sit at block `(t, 0)` at point `t`; every
    weight and bias window stays at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-! ## The arrays the host writes before the region: the weights transposed, the biases as one row -/

theorem V_v1 (c : Dev nD) : (V m c main_v1 : S41024x256.Idx → EReal)
    = (truncf (F := Ideal) .bf16 (transpose S41024x256 [1, 0] (m ((c : Thread nD τ).loc main_arg3) : S256x41024.Idx → EReal) Facts₀.transposes_S256x41024_S41024x256_1_0) Facts₀.bitsLt_bf16_f32 : S41024x256.Idx → EReal) := by
  dsimp only [V, hostOps0]
  after_results

theorem V_v3 (c : Dev nD) : (V m c main_v3 : S512x32.Idx → EReal)
    = (truncf (F := Ideal) .bf16 (transpose S512x32 [1, 0] (m ((c : Thread nD τ).loc main_arg5) : S32x512.Idx → EReal) Facts₀.transposes_S32x512_S512x32_1_0) Facts₀.bitsLt_bf16_f32 : S512x32.Idx → EReal) := by
  dsimp only [V, hostOps0]
  after_results

theorem V_v5 (c : Dev nD) : (V m c main_v5 : S32x32.Idx → EReal)
    = (truncf (F := Ideal) .bf16 (transpose S32x32 [1, 0] (m ((c : Thread nD τ).loc main_arg7) : S32x32.Idx → EReal) Facts₀.transposes_S32x32_S32x32_1_0) Facts₀.bitsLt_bf16_f32 : S32x32.Idx → EReal) := by
  dsimp only [V, hostOps0]
  after_results

theorem V_v7 (c : Dev nD) : (V m c main_v7 : S32x1.Idx → EReal)
    = (truncf (F := Ideal) .bf16 (transpose S32x1 [1, 0] (m ((c : Thread nD τ).loc main_arg9) : S1x32.Idx → EReal) Facts₀.transposes_S1x32_S32x1_1_0) Facts₀.bitsLt_bf16_f32 : S32x1.Idx → EReal) := by
  dsimp only [V, hostOps0]
  after_results

theorem V_v8 (c : Dev nD) : (V m c main_v8 : S1x256.Idx → EReal)
    = shapeCast S1x256 (m ((c : Thread nD τ).loc main_arg4) : S256.Idx → EReal) Facts₀.shapeCasts_S256_S1x256 := by
  dsimp only [V, hostOps0]
  after_results
  rfl

theorem V_v9 (c : Dev nD) : (V m c main_v9 : S1x32.Idx → EReal)
    = shapeCast S1x32 (m ((c : Thread nD τ).loc main_arg6) : S32.Idx → EReal) Facts₀.shapeCasts_S32_S1x32 := by
  dsimp only [V, hostOps0]
  after_results
  rfl

theorem V_v10 (c : Dev nD) : (V m c main_v10 : S1x32.Idx → EReal)
    = shapeCast S1x32 (m ((c : Thread nD τ).loc main_arg8) : S32.Idx → EReal) Facts₀.shapeCasts_S32_S1x32 := by
  dsimp only [V, hostOps0]
  after_results
  rfl

theorem V_v11 (c : Dev nD) : (V m c main_v11 : S1x1.Idx → EReal)
    = shapeCast S1x1 (m ((c : Thread nD τ).loc main_arg10) : S1.Idx → EReal) Facts₀.shapeCasts_S1_S1x1 := by
  dsimp only [V, hostOps0]
  after_results
  rfl

/-! ## Each window's block at a point, read at an entry -/

/-- Row `p` of the white feature block at point `t` is row `32 t + p` of the argument. -/
theorem rd0 (c : Dev nD) (t : Fin cfg0.N) (p : Fin 32) (k : Fin 41024) (r : Fin 4096) (hr : r.val = t.val * 32 + p.val) :
    (iblk m c 0 t : Vec Ideal S32x41024 .f32) (ix2 p k) = (m ((c : Thread nD τ).loc main_arg0) : S4096x41024.Idx → EReal) (ix2 r k) := by
  obtain ⟨e0, e1, -⟩ := idx_facts t
  unfold iblk
  rw [View.read_apply]
  show V m c main_arg0 _ = _
  rw [V_main_arg0]
  refine congrArg _ (idx2_ext _ _ ?_ ?_)
  · show win0_0.index t (0 : Fin 2) * 32 + 1 * p.val = r.val
    rw [e0, hr]; omega
  · show win0_0.index t (1 : Fin 2) * 41024 + 1 * k.val = k.val
    rw [e1]; omega

/-- Row `p` of the black feature block at point `t` is row `32 t + p` of the argument. -/
theorem rd1 (c : Dev nD) (t : Fin cfg0.N) (p : Fin 32) (k : Fin 41024) (r : Fin 4096) (hr : r.val = t.val * 32 + p.val) :
    (iblk m c 1 t : Vec Ideal S32x41024 .f32) (ix2 p k) = (m ((c : Thread nD τ).loc main_arg1) : S4096x41024.Idx → EReal) (ix2 r k) := by
  obtain ⟨-, -, e0, e1, -⟩ := idx_facts t
  unfold iblk
  rw [View.read_apply]
  show V m c main_arg1 _ = _
  rw [V_main_arg1]
  refine congrArg _ (idx2_ext _ _ ?_ ?_)
  · show win0_1.index t (0 : Fin 2) * 32 + 1 * p.val = r.val
    rw [e0, hr]; omega
  · show win0_1.index t (1 : Fin 2) * 41024 + 1 * k.val = k.val
    rw [e1]; omega

/-- Row `p` of the side-to-move block at point `t` is row `32 t + p` of the argument. -/
theorem rd2 (c : Dev nD) (t : Fin cfg0.N) (p : Fin 32) (r : Fin 4096) (hr : r.val = t.val * 32 + p.val) :
    (iblk m c 2 t : Vec Ideal S32x1 .f32) (ix2 p (0 : Fin 1)) = (m ((c : Thread nD τ).loc main_arg2) : S4096x1.Idx → EReal) (ix2 r (0 : Fin 1)) := by
  obtain ⟨-, -, -, -, e0, e1, -⟩ := idx_facts t
  unfold iblk
  rw [View.read_apply]
  show V m c main_arg2 _ = _
  rw [V_main_arg2]
  refine congrArg _ (idx2_ext _ _ ?_ ?_)
  · show win0_2.index t (0 : Fin 2) * 32 + 1 * p.val = r.val
    rw [e0, hr]; omega
  · show win0_2.index t (1 : Fin 2) * 1 + 1 * 0 = 0
    rw [e1]

/-- The stored first-layer weights at (input `k`, output `q`) are the argument's at `(q, k)`. -/
theorem rd3 (c : Dev nD) (t : Fin cfg0.N) (q : Fin 256) (k : Fin 41024) :
    (iblk m c 3 t : Vec Ideal S41024x256 .bf16) (ix2 k q) = (m ((c : Thread nD τ).loc main_arg3) : S256x41024.Idx → EReal) (ix2 q k) := by
  obtain ⟨-, -, -, -, -, -, e0, e1, -⟩ := idx_facts t
  unfold iblk
  rw [View.read_apply]
  show V m c main_v1 _ = _
  rw [V_v1]
  show transpose S41024x256 [1, 0] (m ((c : Thread nD τ).loc main_arg3) : S256x41024.Idx → EReal) Facts₀.transposes_S256x41024_S41024x256_1_0 _ = _
  refine transpose_apply [1, 0] _ _ _ (ix2 q k) fun b => ?_
  match b with
  | ⟨0, _⟩ =>
    show k.val = win0_3.index t (0 : Fin 2) * 41024 + 1 * k.val
    rw [e0]; omega
  | ⟨1, _⟩ =>
    show q.val = win0_3.index t (1 : Fin 2) * 256 + 1 * q.val
    rw [e1]; omega

/-- The stored first-layer bias row at `q` is the argument's at `q`. -/
theorem rd4 (c : Dev nD) (t : Fin cfg0.N) (q : Fin 256) :
    (iblk m c 4 t : Vec Ideal S1x256 .f32) (ix2 (0 : Fin 1) q) = (m ((c : Thread nD τ).loc main_arg4) : S256.Idx → EReal) (ix1 q) := by
  obtain ⟨-, -, -, -, -, -, -, -, e0, e1, -⟩ := idx_facts t
  unfold iblk
  rw [View.read_apply]
  show V m c main_v8 _ = _
  rw [V_v8]
  refine (congrArg _ (idx2_ext _ (ix2 (0 : Fin 1) q) ?_ ?_)).trans (shapeCast_a_1a_apply _ _ (0 : Fin 1) q)
  · show win0_4.index t (0 : Fin 2) * 1 + 1 * 0 = 0
    rw [e0]
  · show win0_4.index t (1 : Fin 2) * 256 + 1 * q.val = q.val
    rw [e1]; omega

/-- The stored second-layer weights at (input `j`, output `n`) are the argument's at `(n, j)`. -/
theorem rd5 (c : Dev nD) (t : Fin cfg0.N) (n : Fin 32) (j : Fin 512) :
    (iblk m c 5 t : Vec Ideal S512x32 .bf16) (ix2 j n) = (m ((c : Thread nD τ).loc main_arg5) : S32x512.Idx → EReal) (ix2 n j) := by
  obtain ⟨-, -, -, -, -, -, -, -, -, -, e0, e1, -⟩ := idx_facts t
  unfold iblk
  rw [View.read_apply]
  show V m c main_v3 _ = _
  rw [V_v3]
  show transpose S512x32 [1, 0] (m ((c : Thread nD τ).loc main_arg5) : S32x512.Idx → EReal) Facts₀.transposes_S32x512_S512x32_1_0 _ = _
  refine transpose_apply [1, 0] _ _ _ (ix2 n j) fun b => ?_
  match b with
  | ⟨0, _⟩ =>
    show j.val = win0_5.index t (0 : Fin 2) * 512 + 1 * j.val
    rw [e0]; omega
  | ⟨1, _⟩ =>
    show n.val = win0_5.index t (1 : Fin 2) * 32 + 1 * n.val
    rw [e1]; omega

/-- The stored second-layer bias row. -/
theorem rd6 (c : Dev nD) (t : Fin cfg0.N) (n : Fin 32) :
    (iblk m c 6 t : Vec Ideal S1x32 .f32) (ix2 (0 : Fin 1) n) = (m ((c : Thread nD τ).loc main_arg6) : S32.Idx → EReal) (ix1 n) := by
  obtain ⟨-, -, -, -, -, -, -, -, -, -, -, -, e0, e1, -⟩ := idx_facts t
  unfold iblk
  rw [View.read_apply]
  show V m c main_v9 _ = _
  rw [V_v9]
  refine (congrArg _ (idx2_ext _ (ix2 (0 : Fin 1) n) ?_ ?_)).trans (shapeCast_a_1a_apply _ _ (0 : Fin 1) n)
  · show win0_6.index t (0 : Fin 2) * 1 + 1 * 0 = 0
    rw [e0]
  · show win0_6.index t (1 : Fin 2) * 32 + 1 * n.val = n.val
    rw [e1]; omega

/-- The stored third-layer weights at (input `j`, output `n`) are the argument's at `(n, j)`. -/
theorem rd7 (c : Dev nD) (t : Fin cfg0.N) (n : Fin 32) (j : Fin 32) :
    (iblk m c 7 t : Vec Ideal S32x32 .bf16) (ix2 j n) = (m ((c : Thread nD τ).loc main_arg7) : S32x32.Idx → EReal) (ix2 n j) := by
  obtain ⟨-, -, -, -, -, -, -, -, -, -, -, -, -, -, e0, e1, -⟩ := idx_facts t
  unfold iblk
  rw [View.read_apply]
  show V m c main_v5 _ = _
  rw [V_v5]
  show transpose S32x32 [1, 0] (m ((c : Thread nD τ).loc main_arg7) : S32x32.Idx → EReal) Facts₀.transposes_S32x32_S32x32_1_0 _ = _
  refine transpose_apply [1, 0] _ _ _ (ix2 n j) fun b => ?_
  match b with
  | ⟨0, _⟩ =>
    show j.val = win0_7.index t (0 : Fin 2) * 32 + 1 * j.val
    rw [e0]; omega
  | ⟨1, _⟩ =>
    show n.val = win0_7.index t (1 : Fin 2) * 32 + 1 * n.val
    rw [e1]; omega

/-- The stored third-layer bias row. -/
theorem rd8 (c : Dev nD) (t : Fin cfg0.N) (n : Fin 32) :
    (iblk m c 8 t : Vec Ideal S1x32 .f32) (ix2 (0 : Fin 1) n) = (m ((c : Thread nD τ).loc main_arg8) : S32.Idx → EReal) (ix1 n) := by
  obtain ⟨-, -, -, -, -, -, -, -, -, -, -, -, -, -, -, -, e0, e1, -⟩ := idx_facts t
  unfold iblk
  rw [View.read_apply]
  show V m c main_v10 _ = _
  rw [V_v10]
  refine (congrArg _ (idx2_ext _ (ix2 (0 : Fin 1) n) ?_ ?_)).trans (shapeCast_a_1a_apply _ _ (0 : Fin 1) n)
  · show win0_8.index t (0 : Fin 2) * 1 + 1 * 0 = 0
    rw [e0]
  · show win0_8.index t (1 : Fin 2) * 32 + 1 * n.val = n.val
    rw [e1]; omega

/-- The stored output-layer weights at (input `j`, output `n`) are the argument's at `(n, j)`. -/
theorem rd9 (c : Dev nD) (t : Fin cfg0.N) (n : Fin 1) (j : Fin 32) :
    (iblk m c 9 t : Vec Ideal S32x1 .bf16) (ix2 j n) = (m ((c : Thread nD τ).loc main_arg9) : S1x32.Idx → EReal) (ix2 n j) := by
  obtain ⟨-, -, -, -, -, -, -, -, -, -, -, -, -, -, -, -, -, -, e0, e1, -⟩ := idx_facts t
  unfold iblk
  rw [View.read_apply]
  show V m c main_v7 _ = _
  rw [V_v7]
  show transpose S32x1 [1, 0] (m ((c : Thread nD τ).loc main_arg9) : S1x32.Idx → EReal) Facts₀.transposes_S1x32_S32x1_1_0 _ = _
  refine transpose_apply [1, 0] _ _ _ (ix2 n j) fun b => ?_
  match b with
  | ⟨0, _⟩ =>
    show j.val = win0_9.index t (0 : Fin 2) * 32 + 1 * j.val
    rw [e0]; omega
  | ⟨1, _⟩ =>
    show n.val = win0_9.index t (1 : Fin 2) * 1 + 1 * n.val
    rw [e1]; omega

/-- The stored output-layer bias. -/
theorem rd10 (c : Dev nD) (t : Fin cfg0.N) (n : Fin 1) :
    (iblk m c 10 t : Vec Ideal S1x1 .f32) (ix2 (0 : Fin 1) n) = (m ((c : Thread nD τ).loc main_arg10) : S1.Idx → EReal) (ix1 n) := by
  obtain ⟨-, -, -, -, -, -, -, -, -, -, -, -, -, -, -, -, -, -, -, -, e0, e1, -⟩ := idx_facts t
  unfold iblk
  rw [View.read_apply]
  show V m c main_v11 _ = _
  rw [V_v11]
  refine (congrArg _ (idx2_ext _ (ix2 (0 : Fin 1) n) ?_ ?_)).trans (shapeCast_a_1a_apply _ _ (0 : Fin 1) n)
  · show win0_10.index t (0 : Fin 2) * 1 + 1 * 0 = 0
    rw [e0]
  · show win0_10.index t (1 : Fin 2) * 1 + 1 * n.val = n.val
    rw [e1]; omega

/-! ## What each point writes back, the cover, the array after the run -/

/-- WHAT POINT `t` WRITES BACK is block `t` of `netOut` of the argument arrays: the stored value's entry `(p, u)` is the
    network's output for row `32 t + p`, which is where the output's block at `t` puts it. -/
theorem flushed_eq (c : Dev nD) (t : Fin cfg0.N) :
    (dats m 0 c).flushed 11 t = ((cfg0.win 11).blk t).view.read (Elt Ideal)
      (netOut (m ((c : Thread nD τ).loc main_arg0) : S4096x41024.Idx → EReal) (m ((c : Thread nD τ).loc main_arg1) : S4096x41024.Idx → EReal) (m ((c : Thread nD τ).loc main_arg2) : S4096x1.Idx → EReal) (m ((c : Thread nD τ).loc main_arg3) : S256x41024.Idx → EReal) (m ((c : Thread nD τ).loc main_arg4) : S256.Idx → EReal) (m ((c : Thread nD τ).loc main_arg5) : S32x512.Idx → EReal) (m ((c : Thread nD τ).loc main_arg6) : S32.Idx → EReal) (m ((c : Thread nD τ).loc main_arg7) : S32x32.Idx → EReal) (m ((c : Thread nD τ).loc main_arg8) : S32.Idx → EReal) (m ((c : Thread nD τ).loc main_arg9) : S1x32.Idx → EReal) (m ((c : Thread nD τ).loc main_arg10) : S1.Idx → EReal)) := by
  rw [flushed11]
  unfold out0_11
  rw [View.canon_unit_zero hz]
  simp only [View.ld_unit_zero (S := S32x41024) hz, View.ld_unit_zero (S := S41024x256) hz, View.ld_unit_zero (S := S1x256) hz, View.ld_unit_zero (S := S32x1) hz, View.ld_unit_zero (S := S512x32) hz, View.ld_unit_zero (S := S1x32) hz, View.ld_unit_zero (S := S32x32) hz, View.ld_unit_zero (S := S1x1) hz]
  funext y
  obtain ⟨p, u, rfl⟩ : ∃ (p : Fin 32) (u : Fin 1), y = ix2 p u := ⟨y 0, y 1, eq_ix2 y⟩
  have hN : cfg0.N = 128 := N_0
  have ht := t.isLt
  have hr : t.val * 32 + p.val < 4096 := by have := p.isLt; omega
  obtain ⟨-, -, -, -, -, -, -, -, -, -, -, -, -, -, -, -, -, -, -, -, -, -, e0, e1⟩ := idx_facts t
  have hemb : ((cfg0.win 11).blk t).view.emb (ix2 p u) = ix2 (⟨t.val * 32 + p.val, hr⟩ : Fin 4096) u :=
    idx2_ext _ _ (by show win0_11.index t (0 : Fin 2) * 32 + 1 * p.val = t.val * 32 + p.val; rw [e0]; omega)
      (by show win0_11.index t (1 : Fin 2) * 1 + 1 * u.val = u.val; rw [e1]; omega)
  rw [View.read_apply, hemb]
  exact block_row (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    p u ⟨t.val * 32 + p.val, hr⟩
    (fun k => rd0 m c t p k _ rfl) (fun k => rd1 m c t p k _ rfl) (rd2 m c t p _ rfl)
    (fun q k => rd3 m c t q k) (fun q => rd4 m c t q) (fun n j => rd5 m c t n j) (fun n => rd6 m c t n)
    (fun n j => rd7 m c t n j) (fun n => rd8 m c t n) (fun n j => rd9 m c t n j) (fun n => rd10 m c t n)

/-- EVERY ROW IS SOME POINT'S: row `r` of the output lies in the block of point `r / 32`. -/
theorem cover (i : S4096x1.Idx) :
    ∃ t : Fin cfg0.N, (cfg0.win 11).flush t = true ∧ i ∈ ((cfg0.win 11).blk t).view.set := by
  have hN : cfg0.N = 128 := N_0
  have hi0 : (i 0).val < 4096 := (i 0).isLt
  have hi1 : (i 1).val < 1 := (i 1).isLt
  have hlt : (i 0).val / 32 < cfg0.N := by rw [hN]; omega
  obtain ⟨-, -, -, -, -, -, -, -, -, -, -, -, -, -, -, -, -, -, -, -, -, -, e0, e1⟩ := idx_facts ⟨(i 0).val / 32, hlt⟩
  refine ⟨⟨(i 0).val / 32, hlt⟩, flush0_11 _, ?_⟩
  show i ∈ ((View.whole main_v12).slice (win0_11.rect ⟨(i 0).val / 32, hlt⟩)).set
  rw [View.set_slice_whole, Rect.mem_set_unit]
  intro a
  match a with
  | ⟨0, _⟩ =>
    show win0_11.index ⟨(i 0).val / 32, hlt⟩ (0 : Fin 2) * 32 ≤ (i 0).val
      ∧ (i 0).val < win0_11.index ⟨(i 0).val / 32, hlt⟩ (0 : Fin 2) * 32 + 32
    rw [e0]
    show (i 0).val / 32 * 32 ≤ (i 0).val ∧ (i 0).val < (i 0).val / 32 * 32 + 32
    omega
  | ⟨1, _⟩ =>
    show win0_11.index ⟨(i 0).val / 32, hlt⟩ (1 : Fin 2) * 1 ≤ (i 1).val
      ∧ (i 1).val < win0_11.index ⟨(i 0).val / 32, hlt⟩ (1 : Fin 2) * 1 + 1
    rw [e1]
    omega

/-- THE OUTPUT ARRAY after the run is `netOut` of the argument arrays. -/
theorem final (c : Dev nD) : (dats m 0 c).arrAt 11 cfg0.N
    = netOut (m ((c : Thread nD τ).loc main_arg0) : S4096x41024.Idx → EReal) (m ((c : Thread nD τ).loc main_arg1) : S4096x41024.Idx → EReal) (m ((c : Thread nD τ).loc main_arg2) : S4096x1.Idx → EReal) (m ((c : Thread nD τ).loc main_arg3) : S256x41024.Idx → EReal) (m ((c : Thread nD τ).loc main_arg4) : S256.Idx → EReal) (m ((c : Thread nD τ).loc main_arg5) : S32x512.Idx → EReal) (m ((c : Thread nD τ).loc main_arg6) : S32.Idx → EReal) (m ((c : Thread nD τ).loc main_arg7) : S32x32.Idx → EReal) (m ((c : Thread nD τ).loc main_arg8) : S32.Idx → EReal) (m ((c : Thread nD τ).loc main_arg9) : S1x32.Idx → EReal) (m ((c : Thread nD τ).loc main_arg10) : S1.Idx → EReal) :=
  (dats m 0 c).arrAt_eq_of_cover 11 _ (fun t _ => flushed_eq m c t) cover

/-- The kernel's run, read: every weakly fair execution terminates with the result array at `netOut` of the arguments and
    the arguments unchanged. -/
theorem run : θ_run defs (onTc (τ := τ) (main (F := Ideal))) ⟨m, fun _ => 0, ρ⟩ fun r => ∀ c : Dev nD,
      r.2.mem ((c : Thread nD τ).loc main_v12) = netOut (m ((c : Thread nD τ).loc main_arg0) : S4096x41024.Idx → EReal) (m ((c : Thread nD τ).loc main_arg1) : S4096x41024.Idx → EReal) (m ((c : Thread nD τ).loc main_arg2) : S4096x1.Idx → EReal) (m ((c : Thread nD τ).loc main_arg3) : S256x41024.Idx → EReal) (m ((c : Thread nD τ).loc main_arg4) : S256.Idx → EReal) (m ((c : Thread nD τ).loc main_arg5) : S32x512.Idx → EReal) (m ((c : Thread nD τ).loc main_arg6) : S32.Idx → EReal) (m ((c : Thread nD τ).loc main_arg7) : S32x32.Idx → EReal) (m ((c : Thread nD τ).loc main_arg8) : S32.Idx → EReal) (m ((c : Thread nD τ).loc main_arg9) : S1x32.Idx → EReal) (m ((c : Thread nD τ).loc main_arg10) : S1.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.Nnue.Blocks

end
-- ==== Proof.RefRow.lean ====
/-
  The reference program's result, one operation at a time, is the row specification of each row.

  The reference multiplies the whole feature arrays by the transposed first-layer weights, adds the bias row,
  joins the two projections in both orders, mixes them with the side-to-move column and its complement,
  clamps, and applies three more affine layers. Reading its stages at an entry `(r, ·)`: a product with a
  transposed matrix is a sum over `k` of the left operand at `(r, k)` times the stored weights at (output unit, `k`); a bias
  broadcast reads the bias at the output unit; the side-to-move broadcast reads the column at row `r`; so every
  stage at row `r` depends on row `r` of the data only, and the last stage is `rowOut` of that row.
-/
import proofs.«151356_j64518998721049_1_alg».proof.Proof.Gen.ReferenceIdeal.Read
import proofs.«151356_j64518998721049_1_alg».proof.Proof.Spec
import proofs.«151356_j64518998721049_1_alg».proof.Proof.Concat
import Idealize.ShloMosaic.Lib.ValueIdx
import Idealize.ShloMosaic.Lib.Pipeline.Value
import Idealize.ShloMosaic.PureOps.Ideal.Laws

noncomputable section

open scoped BigOperators

namespace Cert.Nnue.RefRow

open Cert.ReferenceIdeal Cert.ReferenceIdeal.Read Idealize.ShloMosaic Idealize.ShloMosaic.ValueIdx Cert.Nnue

/-- Two indices of a two-axis shape with equal coordinates are equal. -/
theorem idx2_ext {n0 n1 : Nat} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)

/-- Two indices of a one-axis shape with equal coordinates are equal. -/
theorem idx1_ext {n0 : Nat} (i j : (⟨1, ![n0]⟩ : Shape).Idx) (h0 : (i 0).val = (j 0).val) : i = j :=
  funext fun a => Fin.ext (by match a with | ⟨0, _⟩ => exact h0)

variable (x0 x1 : (⟨S4096x41024, .f32⟩ : BufTy).Contents (Elt Ideal)) (x2 : (⟨S4096x1, .f32⟩ : BufTy).Contents (Elt Ideal))
  (x3 : (⟨S256x41024, .f32⟩ : BufTy).Contents (Elt Ideal)) (x4 : (⟨S256, .f32⟩ : BufTy).Contents (Elt Ideal))
  (x5 : (⟨S32x512, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal))
  (x9 : (⟨S1x32, .f32⟩ : BufTy).Contents (Elt Ideal)) (x10 : (⟨S1, .f32⟩ : BufTy).Contents (Elt Ideal))

/-- The white perspective's projection: entry `(r, q)` is the affine layer of row `r` of the white features. -/
theorem white_proj (r : Fin 4096) (q : Fin 256) :
    val_main_v4 (F := Ideal) x0 x3 x4 (ix2 r q)
      = lin (fun k => x0 (ix2 r k)) (fun q k => x3 (ix2 q k)) (fun q => x4 (ix1 q)) q := by
  rw [val_main_v4_apply, val_main_v1_apply, val_main_v3_apply, val_main_v2_apply]
  refine congrArg₂ (· + ·) (Finset.sum_congr rfl fun k _ => ?_) (congrArg x4 (idx1_ext _ _ rfl))
  rw [val_main_v0_apply]
  exact congrArg₂ (· * ·) (congrArg x0 (idx2_ext _ _ rfl rfl)) (congrArg x3 (idx2_ext _ _ rfl rfl))

/-- The black perspective's projection, through the same weights. -/
theorem black_proj (r : Fin 4096) (q : Fin 256) :
    val_main_v9 (F := Ideal) x1 x3 x4 (ix2 r q)
      = lin (fun k => x1 (ix2 r k)) (fun q k => x3 (ix2 q k)) (fun q => x4 (ix1 q)) q := by
  rw [val_main_v9_apply, val_main_v6_apply, val_main_v8_apply, val_main_v7_apply]
  refine congrArg₂ (· + ·) (Finset.sum_congr rfl fun k _ => ?_) (congrArg x4 (idx1_ext _ _ rfl))
  rw [val_main_v5_apply]
  exact congrArg₂ (· * ·) (congrArg x1 (idx2_ext _ _ rfl rfl)) (congrArg x3 (idx2_ext _ _ rfl rfl))

/-- The layout white-then-black of a row. -/
theorem cat_wb (r : Fin 4096) (j : Fin 512) :
    val_main_v10 (F := Ideal) x0 x1 x3 x4 (ix2 r j)
      = cat (lin (fun k => x0 (ix2 r k)) (fun q k => x3 (ix2 q k)) (fun q => x4 (ix1 q)))
          (lin (fun k => x1 (ix2 r k)) (fun q k => x3 (ix2 q k)) (fun q => x4 (ix1 q))) j := by
  unfold val_main_v10
  refine (concat_rows _ _ _ r j).trans ?_
  simp only [white_proj, black_proj]

/-- The layout black-then-white of a row. -/
theorem cat_bw (r : Fin 4096) (j : Fin 512) :
    val_main_v15 (F := Ideal) x0 x1 x3 x4 (ix2 r j)
      = cat (lin (fun k => x1 (ix2 r k)) (fun q k => x3 (ix2 q k)) (fun q => x4 (ix1 q)))
          (lin (fun k => x0 (ix2 r k)) (fun q k => x3 (ix2 q k)) (fun q => x4 (ix1 q))) j := by
  unfold val_main_v15
  refine (concat_rows _ _ _ r j).trans ?_
  simp only [white_proj, black_proj]

/-- The first hidden layer of row `r`: the clamped side-to-move mixture. -/
theorem hidden1_at (r : Fin 4096) (j : Fin 512) :
    val_main_v19 (F := Ideal) x0 x1 x2 x3 x4 (ix2 r j)
      = hidden1 (fun k => x0 (ix2 r k)) (fun k => x1 (ix2 r k)) (x2 (ix2 r (0 : Fin 1)))
          (fun q k => x3 (ix2 q k)) (fun q => x4 (ix1 q)) j := by
  rw [val_main_v19_apply, val_main_call0_v4_apply, val_main_call0_v3_apply, val_main_cst_1_apply,
    val_main_call0_v2_apply, val_main_call0_v1_apply, val_main_call0_v0_apply, val_main_cst_0_apply,
    val_main_v18_apply, val_main_v12_apply, val_main_v17_apply, val_main_v11_apply, val_main_v16_apply,
    val_main_v14_apply, val_main_v13_apply, val_main_cst_apply, cat_wb, cat_bw,
    show idx_main_v11 (ix2 r j) = ix2 r (0 : Fin 1) from idx2_ext _ _ rfl rfl,
    show idx_main_v16 (ix2 r j) = ix2 r (0 : Fin 1) from idx2_ext _ _ rfl rfl]
  rfl

/-- The second layer before its clamp. -/
theorem layer2_at (r : Fin 4096) (n : Fin 32) :
    val_main_v24 (F := Ideal) x0 x1 x2 x3 x4 x5 x6 (ix2 r n)
      = lin (hidden1 (fun k => x0 (ix2 r k)) (fun k => x1 (ix2 r k)) (x2 (ix2 r (0 : Fin 1)))
          (fun q k => x3 (ix2 q k)) (fun q => x4 (ix1 q))) (fun n j => x5 (ix2 n j)) (fun n => x6 (ix1 n)) n := by
  rw [val_main_v24_apply, val_main_v21_apply, val_main_v23_apply, val_main_v22_apply]
  refine congrArg₂ (· + ·) (Finset.sum_congr rfl fun k _ => ?_) (congrArg x6 (idx1_ext _ _ rfl))
  rw [show lidx_main_v21 (ix2 r n) k = ix2 r k from idx2_ext _ _ rfl rfl, hidden1_at, val_main_v20_apply]
  exact congrArg₂ (· * ·) rfl (congrArg x5 (idx2_ext _ _ rfl rfl))

/-- The second hidden layer of row `r`. -/
theorem hidden2_at (r : Fin 4096) (n : Fin 32) :
    val_main_v25 (F := Ideal) x0 x1 x2 x3 x4 x5 x6 (ix2 r n)
      = clip (lin (hidden1 (fun k => x0 (ix2 r k)) (fun k => x1 (ix2 r k)) (x2 (ix2 r (0 : Fin 1)))
          (fun q k => x3 (ix2 q k)) (fun q => x4 (ix1 q))) (fun n j => x5 (ix2 n j)) (fun n => x6 (ix1 n)) n) := by
  rw [val_main_v25_apply, val_main_call1_v4_apply, val_main_call1_v3_apply, val_main_cst_3_apply,
    val_main_call1_v2_apply, val_main_call1_v1_apply, val_main_call1_v0_apply, val_main_cst_2_apply, layer2_at]
  rfl

/-- The third layer before its clamp. -/
theorem layer3_at (r : Fin 4096) (n : Fin 32) :
    val_main_v30 (F := Ideal) x0 x1 x2 x3 x4 x5 x6 x7 x8 (ix2 r n)
      = lin (fun j => clip (lin (hidden1 (fun k => x0 (ix2 r k)) (fun k => x1 (ix2 r k)) (x2 (ix2 r (0 : Fin 1)))
          (fun q k => x3 (ix2 q k)) (fun q => x4 (ix1 q))) (fun n j => x5 (ix2 n j)) (fun n => x6 (ix1 n)) j))
          (fun n j => x7 (ix2 n j)) (fun n => x8 (ix1 n)) n := by
  rw [val_main_v30_apply, val_main_v27_apply, val_main_v29_apply, val_main_v28_apply]
  refine congrArg₂ (· + ·) (Finset.sum_congr rfl fun k _ => ?_) (congrArg x8 (idx1_ext _ _ rfl))
  rw [show lidx_main_v27 (ix2 r n) k = ix2 r k from idx2_ext _ _ rfl rfl, hidden2_at, val_main_v26_apply]
  exact congrArg₂ (· * ·) rfl (congrArg x7 (idx2_ext _ _ rfl rfl))

/-- The third hidden layer of row `r`. -/
theorem hidden3_at (r : Fin 4096) (n : Fin 32) :
    val_main_v31 (F := Ideal) x0 x1 x2 x3 x4 x5 x6 x7 x8 (ix2 r n)
      = clip (lin (fun j => clip (lin (hidden1 (fun k => x0 (ix2 r k)) (fun k => x1 (ix2 r k)) (x2 (ix2 r (0 : Fin 1)))
          (fun q k => x3 (ix2 q k)) (fun q => x4 (ix1 q))) (fun n j => x5 (ix2 n j)) (fun n => x6 (ix1 n)) j))
          (fun n j => x7 (ix2 n j)) (fun n => x8 (ix1 n)) n) := by
  rw [val_main_v31_apply, val_main_call2_v4_apply, val_main_call2_v3_apply, val_main_cst_5_apply,
    val_main_call2_v2_apply, val_main_call2_v1_apply, val_main_call2_v0_apply, val_main_cst_4_apply, layer3_at]
  rfl

/-- ENTRY `(r, u)` OF THE REFERENCE'S RESULT is the network's output for row `r` of the arguments. -/
theorem out_at (r : Fin 4096) (u : Fin 1) :
    val_main_v36 (F := Ideal) x0 x1 x2 x3 x4 x5 x6 x7 x8 x9 x10 (ix2 r u)
      = rowOut (fun k => x0 (ix2 r k)) (fun k => x1 (ix2 r k)) (x2 (ix2 r (0 : Fin 1)))
          (fun q k => x3 (ix2 q k)) (fun q => x4 (ix1 q)) (fun n j => x5 (ix2 n j)) (fun n => x6 (ix1 n))
          (fun n j => x7 (ix2 n j)) (fun n => x8 (ix1 n)) (fun n j => x9 (ix2 n j)) (fun n => x10 (ix1 n)) u := by
  have hu : u.val = 0 := by have := u.isLt; omega
  rw [val_main_v36_apply, val_main_v33_apply, val_main_v35_apply, val_main_v34_apply]
  refine congrArg₂ (· + ·) (Finset.sum_congr rfl fun k _ => ?_) (congrArg x10 (idx1_ext _ _ hu.symm))
  rw [show lidx_main_v33 (ix2 r u) k = ix2 r k from idx2_ext _ _ rfl rfl, hidden3_at, val_main_v32_apply]
  exact congrArg₂ (· * ·) rfl (congrArg x9 (idx2_ext _ _ rfl rfl))

/-- THE REFERENCE'S RESULT ARRAY is `netOut` of the arguments. -/
theorem result_eq : val_main_v36 (F := Ideal) x0 x1 x2 x3 x4 x5 x6 x7 x8 x9 x10 = netOut x0 x1 x2 x3 x4 x5 x6 x7 x8 x9 x10 := by
  funext i
  obtain ⟨r, u, rfl⟩ : ∃ (r : Fin 4096) (u : Fin 1), i = ix2 r u := ⟨i 0, i 1, eq_ix2 i⟩
  rw [out_at, netOut_ix2]

end Cert.Nnue.RefRow

end
-- ==== Proof.lean ====
/-
  The kernel and the reference compute one function.

  Both programs evaluate, for each of the 4096 rows, a small clamped network on two feature vectors: one affine map
  applied to both, the two images laid side by side in both orders and mixed by the row's side-to-move weight,
  a clamp, and three more affine layers (the first two clamped). The kernel does it 32 rows at a time with the
  weights stored transposed and every product's operands rounded to a narrower float format; the reference does
  it on whole arrays. On the extended reals a rounding is the identity and a matrix product is its sum of
  products, so row by row the two are the same expression, `Cert.Nnue.rowOut` of the row's data: no law of
  arithmetic beyond reading each operation at an index is used, and the inputs' finiteness is never needed.

  The frames of the two kernel programs and the kernel's blockwise run are the generated ones; the reference's frame
  is its generated run with the result dropped; nothing was rewritten by the idealization, so it preserves trivially.
-/
import proofs.«151356_j64518998721049_1_alg».proof.Defs
import proofs.«151356_j64518998721049_1_alg».proof.Proof.Gen.Kernel
import proofs.«151356_j64518998721049_1_alg».proof.Proof.Gen.Kernel.Skeleton
import proofs.«151356_j64518998721049_1_alg».proof.Proof.Gen.Kernel.Launch
import proofs.«151356_j64518998721049_1_alg».proof.Proof.Gen.Kernel.Points
import proofs.«151356_j64518998721049_1_alg».proof.Proof.Gen.Kernel.Frame
import proofs.«151356_j64518998721049_1_alg».proof.Proof.Gen.KernelIdeal
import proofs.«151356_j64518998721049_1_alg».proof.Proof.Gen.KernelIdeal.Skeleton
import proofs.«151356_j64518998721049_1_alg».proof.Proof.Gen.KernelIdeal.Launch
import proofs.«151356_j64518998721049_1_alg».proof.Proof.Gen.KernelIdeal.Points
import proofs.«151356_j64518998721049_1_alg».proof.Proof.Gen.KernelIdeal.Frame
import proofs.«151356_j64518998721049_1_alg».proof.Proof.Gen.ReferenceIdeal
import proofs.«151356_j64518998721049_1_alg».proof.Proof.Gen.Pre_finite_inputs
import proofs.«151356_j64518998721049_1_alg».proof.Proof.Gen.KernelIdeal.Value
import proofs.«151356_j64518998721049_1_alg».proof.Proof.Gen.ReferenceIdeal.Run
import proofs.«151356_j64518998721049_1_alg».proof.Proof.Gen.ReferenceIdeal.Read
import proofs.«151356_j64518998721049_1_alg».proof.Proof.Blocks
import proofs.«151356_j64518998721049_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `netOut` of the argument arrays: the kernel block by block, each block a
    stretch of 32 rows; the reference stage by stage; the arguments agree. -/
theorem algebraic : Cert.algebraic_KernelIdeal_ReferenceIdeal := by
  intro m ρ m' ρ' _ hagree
  refine ⟨_, Cert.Nnue.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  rw [Cert.ReferenceIdeal.Read.val_main_v36_eq, Cert.Nnue.RefRow.result_eq, g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
